-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_2)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x512x512 : Shape := ⟨3, ![32, 512, 512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_

variable [Facts]

def fn {F : FTy → Type} [FloatOps F] (main_arg0 : FVec F S32x1024x512 .f32) (main_arg1 : FVec F S32x1024x512 .f32) (main_arg2 : FVec F S32x512x512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S32x512x512 .f32 := Host.absf main_arg2
  let main_cst_2 : FVec F S_ .f32 := constant S_ .f32 0x7F800000#32
  let main_v10 : FVec F S32x512x512 .f32 := broadcastInDim S32x512x512 ![] bcast_S_S32x512x512 main_cst_2
  let main_v11 : IVec S32x512x512 1 := cmpf .olt main_v9 main_v10
  let main_c_3 : IVec S_ 1 := constantI S_ 1 1#1
  let main_v12 : IVec S_ 1 := (fun x v => Host.reduce IntOp.andi x v reducesTo_S32x512x512_S_d0_1_2 h_S_) main_v11 main_c_3
  let main_v13 : IVec S_ 1 := andi main_v8 main_v12
  main_v13
-- ==== Kernel.lean ====
abbrev S32x1024x512 : Shape := ⟨3, ![32, 1024, 512]⟩
abbrev S32x512x512 : Shape := ⟨3, ![32, 512, 512]⟩
abbrev S1x1024x512 : Shape := ⟨3, ![1, 1024, 512]⟩
abbrev S1x512x512 : Shape := ⟨3, ![1, 512, 512]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S32x512x512, .f32⟩
  | .hbm, ⟨3, _⟩ => ⟨S32x1024x512, .f32⟩
  | .hbm, ⟨4, _⟩ => ⟨S32x1024x512, .f32⟩
  | .hbm, ⟨5, _⟩ => ⟨S32x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x512, .f32⟩
  | .local _ .vmem, ⟨5, _⟩ => ⟨S1x512x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  shapeCasts_S1024x512_S1x1024x512 : S1024x512.ShapeCasts S1x1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S1024x512_S1024 : S1024x512.Reduces [1] S1024
  broadcasts_S1024x1_S1024x512 : S1024x1.Broadcasts S1024x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  dot_S1024x512_S512x512_S1024x512_1_1_0_0_n_n_wf : DotDims.WF S1024x512 S512x512 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S32x1024x512.size a
  hwx0_1 : ∀ i : grid0.Coords, EltTy.bits .f32 = 32 ∨ (Rect.block (s := S32x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S32x1024x512.size a
  hwx0_3 : ∀ i : grid0.Coords, EltTy.bits .f32 = 32 ∨ (Rect.block (s := S32x1024x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S32x1024x512.size a
  hwx0_4 : ∀ i : grid0.Coords, EltTy.bits .f32 = 32 ∨ (Rect.block (s := S32x1024x512) S1x1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S32x1024x512.size a
  hwx0_5 : ∀ i : grid0.Coords, EltTy.bits .f32 = 32 ∨ (Rect.block (s := S32x1024x512) S1x1024x512.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32x512x512 : Shape := ⟨3, ![32, 512, 512]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S32x512x512, .f32⟩
  | .hbm, ⟨3, _⟩ => ⟨S32x1024x1024, .f32⟩
  | .hbm, ⟨4, _⟩ => ⟨S_, .f32⟩
  | .hbm, ⟨5, _⟩ => ⟨S32x1024x1024, .f32⟩
  | .hbm, ⟨6, _⟩ => ⟨S32x1024x1024, .f32⟩
  | .hbm, ⟨7, _⟩ => ⟨S_, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024x1, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S_, .f32⟩
  | .hbm, ⟨17, _⟩ => ⟨S32x1024, .f32⟩
  | .hbm, ⟨18, _⟩ => ⟨S32x1024x1, .f32⟩
  | .hbm, ⟨19, _⟩ => ⟨S32x1024x1024, .f32⟩
  | .hbm, ⟨20, _⟩ => ⟨S32x1024x1024, .f32⟩
  | .hbm, ⟨21, _⟩ => ⟨S32x1024x512, .f32⟩
  | .hbm, ⟨22, _⟩ => ⟨S_, .f32⟩
  | .hbm, ⟨23, _⟩ => ⟨S32x1024x512, .f32⟩
  | .hbm, ⟨24, _⟩ => ⟨S32x1024x512, .f32⟩
  | .hbm, ⟨25, _⟩ => ⟨S_, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S32x1024x1, .f32⟩
  | .hbm, ⟨31, _⟩ => ⟨S32x1024x512, .f32⟩
  | .hbm, ⟨32, _⟩ => ⟨S32x1024x512, .f32⟩
  | .hbm, ⟨33, _⟩ => ⟨S32x1024x512, .f32⟩
  | .hbm, ⟨34, _⟩ => ⟨S_, .f32⟩
  | .hbm, ⟨35, _⟩ => ⟨S32x1024, .f32⟩
  | .hbm, ⟨36, _⟩ => ⟨S32x1024x1, .f32⟩
  | .hbm, ⟨37, _⟩ => ⟨S32x1024x512, .f32⟩
  | .hbm, ⟨38, _⟩ => ⟨S32x1024x512, .f32⟩
  | .hbm, ⟨39, _⟩ => ⟨S32x1024x512, .f32⟩
  | .hbm, ⟨40, _⟩ => ⟨S32x1024x512, .f32⟩
  | .hbm, ⟨41, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x512 : S_.BroadcastsInDim S32x1024x512 (![] : Fin 0 → Fin S32x1024x512.rank)
  reducesTo_S32x1024x512_S32x1024_d2 : S32x1024x512.ReducesTo [2] S32x1024
  bcast_S32x1024x1_S32x1024x512_0_1_2 : S32x1024x1.BroadcastsInDim S32x1024x512 (![0, 1, 2] : Fin 3 → Fin S32x1024x512.rank)
  dot_S32x1024x512_S32x1024x512_S32x1024x1024_2_2_1_1_0_0_wf : DotDims.WF S32x1024x512 S32x1024x512 S32x1024x1024 [2] [2] [1] [1] [0] [0]
  dot_S32x1024x512_S32x512x512_S32x1024x512_2_2_1_1_0_0_wf : DotDims.WF S32x1024x512 S32x512x512 S32x1024x512 [2] [2] [1] [1] [0] [0]
  dot_S32x1024x1024_S32x1024x512_S32x1024x512_2_1_1_2_0_0_wf : DotDims.WF S32x1024x1024 S32x1024x512 S32x1024x512 [2] [1] [1] [2] [0] [0]
  dot_S32x1024x512_S32x512x512_S32x1024x512_2_1_1_2_0_0_wf : DotDims.WF S32x1024x512 S32x512x512 S32x1024x512 [2] [1] [1] [2] [0] [0]

variable [Facts₀]

def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x512_S32x512x512_S32x1024x512_2_2_1_1_0_0 : DotDims S32x1024x512 S32x512x512 S32x1024x512 where
  lhsContracting := [2]
  rhsContracting := [2]
  lhsNonContracting := [1]
  rhsNonContracting := [1]
  lhsBatch := [0]
  rhsBatch := [0]
  wf := dot_S32x1024x512_S32x512x512_S32x1024x512_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S32x1024x512_S32x512x512_S32x1024x512_2_1_1_2_0_0 : DotDims S32x1024x512 S32x512x512 S32x1024x512 where
  lhsContracting := [2]
  rhsContracting := [1]
  lhsNonContracting := [1]
  rhsNonContracting := [2]
  lhsBatch := [0]
  rhsBatch := [0]
  wf := dot_S32x1024x512_S32x512x512_S32x1024x512_2_1_1_2_0_0_wf

class Facts : Prop extends Facts₀ where

variable [Facts]
-- ==== Proof.Stages.lean ====
/-
  The body of one grid point, stage by stage.

  At a grid point the body holds three blocks: a 1024 × 512 matrix P (one batch of the first argument), a 1024 × 512
  matrix Q (the same batch of the second) and a 512 × 512 matrix W (of the third). It forms two row-wise softmaxes:
  of the scaled products P Qᵀ · s (1024 × 1024) and of Q Wᵀ · s (1024 × 512), each as exp (x − row maximum) divided by
  its row sum, and stores (softmax₁) Q, then E = (softmax₂) W, then E W. The definitions below name the intermediate
  arrays of that computation, and the equations say that the stored values are exactly these compositions.
-/
import proofs.«121219_j8778913153179_2_alg».proof.Proof.Gen.KernelIdeal.Skeleton

noncomputable section

namespace Cert.KernelIdeal.Attn

open Idealize.ShloMosaic Cert.KernelIdeal Cert.KernelIdeal.Gen

variable {F : FTy → Type} [FloatOps F]

/-- The first block as the 1024 × 512 matrix P. -/
def pmat (x0 : Vec F S1x1024x512 .f32) : FVec F S1024x512 .bf16 :=
  truncf .bf16 (shapeCast S1024x512 x0 shapeCasts_S1x1024x512_S1024x512) bitsLt_bf16_f32

/-- The scaled products P Qᵀ · s. -/
def logits1 (x0 x1 : Vec F S1x1024x512 .f32) : FVec F S1024x1024 .f32 :=
  mulf (matmul dot_S1024x512_S1024x512_S1024x1024_1_1_0_0_n_n none (pmat x0) (k0_pay4 x1) (constant S1024x1024 .f32 0x00000000#32))
    (broadcast S1024x1024 (Scalar.ofBits .f32 0x3D3504F3#32))

/-- Their row maxima. -/
def rowmax1 (x0 x1 : Vec F S1x1024x512 .f32) : FVec F S1024 .f32 :=
  multiReduction .maximumf [1] S1024 (logits1 x0 x1) 0xFF800000#32 reduces_S1024x1024_S1024 (.inl rfl) rfl

/-- exp (x − row maximum). -/
def expo1 (x0 x1 : Vec F S1x1024x512 .f32) : FVec F S1024x1024 .f32 :=
  exp (subf (logits1 x0 x1) (broadcastTo S1024x1024 (shapeCast S1024x1 (rowmax1 x0 x1) shapeCasts_S1024_S1024x1) broadcasts_S1024x1_S1024x1024))

/-- The row sums of the exponentials. -/
def rowsum1 (x0 x1 : Vec F S1x1024x512 .f32) : FVec F S1024 .f32 :=
  multiReduction .add [1] S1024 (expo1 x0 x1) 0x00000000#32 reduces_S1024x1024_S1024 (.inl rfl) rfl

/-- The first softmax. -/
def attn1 (x0 x1 : Vec F S1x1024x512 .f32) : FVec F S1024x1024 .bf16 :=
  truncf .bf16 (divf (expo1 x0 x1) (broadcastTo S1024x1024 (shapeCast S1024x1 (rowsum1 x0 x1) shapeCasts_S1024_S1024x1) broadcasts_S1024x1_S1024x1024)) bitsLt_bf16_f32

/-- The first stored value is (softmax₁) Q. -/
theorem pay5_eq (x0 x1 : Vec F S1x1024x512 .f32) :
    k0_pay5 x0 x1 = shapeCast S1x1024x512 (matmul dot_S1024x1024_S1024x512_S1024x512_1_0_0_1_n_n none (attn1 x0 x1) (k0_pay4 x1) (constant S1024x512 .f32 0x00000000#32)) shapeCasts_S1024x512_S1x1024x512 := rfl

/-- The scaled products Q Wᵀ · s. -/
def logits2 (x1 : Vec F S1x1024x512 .f32) (x2 : Vec F S1x512x512 .f32) : FVec F S1024x512 .f32 :=
  mulf (matmul dot_S1024x512_S512x512_S1024x512_1_1_0_0_n_n none (k0_pay4 x1) (k0_pay6 x2) (constant S1024x512 .f32 0x00000000#32))
    (broadcast S1024x512 (Scalar.ofBits .f32 0x3D3504F3#32))

/-- Their row maxima. -/
def rowmax2 (x1 : Vec F S1x1024x512 .f32) (x2 : Vec F S1x512x512 .f32) : FVec F S1024 .f32 :=
  multiReduction .maximumf [1] S1024 (logits2 x1 x2) 0xFF800000#32 reduces_S1024x512_S1024 (.inl rfl) rfl

/-- exp (x − row maximum) of the second products. -/
theorem pay7_eq (x1 : Vec F S1x1024x512 .f32) (x2 : Vec F S1x512x512 .f32) :
    k0_pay7 x1 x2 = exp (subf (logits2 x1 x2) (broadcastTo S1024x512 (shapeCast S1024x1 (rowmax2 x1 x2) shapeCasts_S1024_S1024x1) broadcasts_S1024x1_S1024x512)) := rfl

/-- The row sums of the second exponentials. -/
def rowsum2 (x1 : Vec F S1x1024x512 .f32) (x2 : Vec F S1x512x512 .f32) : FVec F S1024 .f32 :=
  multiReduction .add [1] S1024 (k0_pay7 x1 x2) 0x00000000#32 reduces_S1024x512_S1024 (.inl rfl) rfl

theorem pay8_eq (x1 : Vec F S1x1024x512 .f32) (x2 : Vec F S1x512x512 .f32) :
    k0_pay8 x1 x2 = broadcastTo S1024x512 (shapeCast S1024x1 (rowsum2 x1 x2) shapeCasts_S1024_S1024x1) broadcasts_S1024x1_S1024x512 := rfl

/-- The second softmax. -/
def attn2 (x1 : Vec F S1x1024x512 .f32) (x2 : Vec F S1x512x512 .f32) : FVec F S1024x512 .bf16 :=
  truncf .bf16 (divf (k0_pay7 x1 x2) (k0_pay8 x1 x2)) bitsLt_bf16_f32

/-- E = (softmax₂) W. -/
def energy (x1 : Vec F S1x1024x512 .f32) (x2 : Vec F S1x512x512 .f32) : FVec F S1024x512 .f32 :=
  k0_pay1 (k0_pay6 x2) (k0_pay7 x1 x2) (k0_pay8 x1 x2)

theorem energy_eq (x1 : Vec F S1x1024x512 .f32) (x2 : Vec F S1x512x512 .f32) :
    energy x1 x2 = matmul dot_S1024x512_S512x512_S1024x512_1_0_0_1_n_n none (attn2 x1 x2) (k0_pay6 x2) (constant S1024x512 .f32 0x00000000#32) := rfl

/-- The second stored value is E. -/
theorem pay2_eq (x1 : Vec F S1x1024x512 .f32) (x2 : Vec F S1x512x512 .f32) :
    k0_pay2 (k0_pay6 x2) (k0_pay7 x1 x2) (k0_pay8 x1 x2) = shapeCast S1x1024x512 (energy x1 x2) shapeCasts_S1024x512_S1x1024x512 := rfl

/-- The third stored value is E W. -/
theorem pay3_eq (x1 : Vec F S1x1024x512 .f32) (x2 : Vec F S1x512x512 .f32) :
    k0_pay3 (k0_pay6 x2) (k0_pay7 x1 x2) (k0_pay8 x1 x2) = shapeCast S1x1024x512 (matmul dot_S1024x512_S512x512_S1024x512_1_0_0_1_n_n none (truncf .bf16 (energy x1 x2) bitsLt_bf16_f32) (k0_pay6 x2) (constant S1024x512 .f32 0x00000000#32)) shapeCasts_S1024x512_S1x1024x512 := rfl

end Cert.KernelIdeal.Attn

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowReduce.lean ====
/-
  Reductions along the last axis, read at a row.

  Over the extended reals a maximum reduction of an A × B matrix along its second axis is, at row p, the fold of max
  from the accumulator's value over the B entries of row p, and an add reduction is the sum of those entries; a
  host-side reduction of an N × A × B array along its last axis with a commutative associative body is, at (n, p),
  the fold from the initial value over the B entries (n, p, ·). The statements name each source index by its
  coordinates, so that a proof can rewrite the folded function entry by entry.
-/
import Idealize.ShloMosaic.PureOps.Ideal.Laws
import Idealize.ShloMosaic.Lib.ValueIdx

noncomputable section

namespace Cert.LibRowReduce

open Idealize.ShloMosaic Idealize.ShloMosaic.ValueIdx

/-- The source index over row p with last coordinate k is (p, k). -/
theorem lift_rows {A B : ℕ} (h : (⟨2, ![A, B]⟩ : Shape).Reduces [1] ⟨1, ![A]⟩) (p : Fin A) (k : Fin B) :
    h.lift (ix1 p) k = ix2 p k := by
  funext a; apply Fin.ext
  match a with
  | ⟨0, _⟩ => rfl
  | ⟨1, _⟩ => rfl

/-- A maximum reduction along the second axis, at row p: the fold of max over that row's entries. -/
theorem multiReduction_maximumf_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.maximumf.neutral .f32 hφ)
    (p : Fin A) :
    multiReduction .maximumf [1] ⟨1, ![A]⟩ src acc h hφ hacc (ix1 p)
      = (Finset.univ : Finset (Fin B)).fold max (Ideal.ofBits .f32 acc) (fun k => src (ix2 p k)) := by
  refine (Ideal.multiReduction_maximumf_single src acc h hφ hacc (ix1 p)).trans ?_
  show (Finset.univ : Finset (Fin B)).fold max (Ideal.ofBits .f32 acc) (fun k => src (h.lift (ix1 p) k)) = _
  exact congrArg (fun f => (Finset.univ : Finset (Fin B)).fold max (Ideal.ofBits .f32 acc) f)
    (funext fun k => congrArg src (lift_rows h p k))

/-- An add reduction along the second axis, at row p: the sum of that row's entries. -/
theorem multiReduction_add_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin B, src (ix2 p k) := by
  refine (Ideal.multiReduction_add_single src acc h hφ hacc (ix1 p)).trans ?_
  show ∑ k : Fin B, src (h.lift (ix1 p) k) = _
  exact Finset.sum_congr rfl fun k _ => congrArg src (lift_rows h p k)

/-- The source index over (n, p) with last coordinate k is (n, p, k). -/
theorem lift_last3 {N A B : ℕ} (h : (⟨3, ![N, A, B]⟩ : Shape).Reduces [2] ⟨2, ![N, A]⟩) (n : Fin N) (p : Fin A) (k : Fin B) :
    h.lift (ix2 n p) k = ix3 n p k := by
  funext a; apply Fin.ext
  match a with
  | ⟨0, _⟩ => rfl
  | ⟨1, _⟩ => rfl
  | ⟨2, _⟩ => rfl

/-- A host reduction along the last of three axes with a commutative associative body, at (n, p): the fold from the
    initial value over the entries (n, p, ·). -/
theorem hostReduce_last3 {α : Type} {N A B : ℕ} {u : Shape} (f : α → α → α) [Std.Commutative f] [Std.Associative f]
    (x : (⟨3, ![N, A, B]⟩ : Shape).Idx → α) (init : u.Idx → α)
    (h' : (⟨3, ![N, A, B]⟩ : Shape).ReducesTo [2] ⟨2, ![N, A]⟩) (h : (⟨3, ![N, A, B]⟩ : Shape).Reduces [2] ⟨2, ![N, A]⟩)
    (hu : 0 < u.numel) (n : Fin N) (p : Fin A) :
    Host.reduce f x init h' hu (ix2 n p)
      = (Finset.univ : Finset (Fin B)).fold f (init (Shape.Idx.first hu)) (fun k => x (ix3 n p k)) := by
  refine (Host.reduce_eq_fold_single f x init h' h hu (ix2 n p)).trans ?_
  show (Finset.univ : Finset (Fin B)).fold f (init (Shape.Idx.first hu)) (fun k => x (h.lift (ix2 n p) k)) = _
  exact congrArg (fun g => (Finset.univ : Finset (Fin B)).fold f (init (Shape.Idx.first hu)) g)
    (funext fun k => congrArg x (lift_last3 h n p k))

/-- The fold of max from b is at least b, so taking the maximum with b again changes nothing. -/
theorem max_fold_max_self {ι : Type} (s : Finset ι) (b : EReal) (g : ι → EReal) :
    max b (s.fold max b g) = s.fold max b g :=
  max_eq_right ((Finset.le_fold_max (s := s) (f := g) (b := b) (c := b)).2 (Or.inl le_rfl))

end Cert.LibRowReduce

end
-- ==== Proof.Bridge1.lean ====
/-
  The first softmax stream at one grid point against the reference, stage by stage.

  Let x0, x1 be the blocks a grid point holds of the first two arguments and suppose they are batch b of the whole
  arrays X0, X1: x0 (0, r, d) = X0 (b, r, d) and likewise for x1. Then every intermediate array of the body's first
  stream — the scaled products P Qᵀ · s, their row maxima, exp (x − max), the row sums, the quotient, and the product
  of the quotient with Q — agrees, entry by entry, with batch b of the reference's array of the same stage. Both
  sides compute the same sums, maxima and quotients of the same numbers; the only difference in form is that the
  reference takes the maximum with −∞ once more after reducing from −∞, which changes nothing.
-/
import proofs.«121219_j8778913153179_2_alg».proof.Proof.Stages
import proofs.«121219_j8778913153179_2_alg».proof.Proof.Gen.ReferenceIdeal.Read
import proofs.«121219_j8778913153179_2_alg».proof.Proof.LibMatmul
import proofs.«121219_j8778913153179_2_alg».proof.Proof.LibMatmulNT
import proofs.«121219_j8778913153179_2_alg».proof.Proof.LibKeepdims
import proofs.«121219_j8778913153179_2_alg».proof.Proof.LibRowReduce
import Idealize.ShloMosaic.Lib.ValueLayout
import Idealize.ShloMosaic.PureOps.Ideal.Laws

noncomputable section

namespace Cert.KernelIdeal.Attn

open Idealize.ShloMosaic Idealize.ShloMosaic.ValueIdx Cert.KernelIdeal Cert.KernelIdeal.Gen
open Cert.ReferenceIdeal.Read

/-! ## The two dimension records of the first stream, by coordinates -/

section Dims

/-- P Qᵀ: entry (p, q) reads row p of the left operand and row q of the right. -/
theorem d_pq_l0 (i : S1024x1024.Idx) (k : dot_S1024x512_S1024x512_S1024x1024_1_1_0_0_n_n.contr.Idx) :
    (dot_S1024x512_S1024x512_S1024x1024_1_1_0_0_n_n.lhsIdx i k (0 : Fin 2)).val = (i (0 : Fin 2)).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem d_pq_r0 (i : S1024x1024.Idx) (k : dot_S1024x512_S1024x512_S1024x1024_1_1_0_0_n_n.contr.Idx) :
    (dot_S1024x512_S1024x512_S1024x1024_1_1_0_0_n_n.rhsIdx i k (0 : Fin 2)).val = (i (1 : Fin 2)).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- (softmax) Q: entry (p, d) reads row p of the left operand and column d of the right. -/
theorem d_aq_l0 (i : S1024x512.Idx) (k : dot_S1024x1024_S1024x512_S1024x512_1_0_0_1_n_n.contr.Idx) :
    (dot_S1024x1024_S1024x512_S1024x512_1_0_0_1_n_n.lhsIdx i k (0 : Fin 2)).val = (i (0 : Fin 2)).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem d_aq_r1 (i : S1024x512.Idx) (k : dot_S1024x1024_S1024x512_S1024x512_1_0_0_1_n_n.contr.Idx) :
    (dot_S1024x1024_S1024x512_S1024x512_1_0_0_1_n_n.rhsIdx i k (1 : Fin 2)).val = (i (1 : Fin 2)).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

end Dims

/-! ## The blocks as matrices -/

section Stream1

variable (x0 x1 : Vec Ideal S1x1024x512 .f32)
variable (X0 X1 : (⟨Cert.ReferenceIdeal.S32x1024x512, .f32⟩ : BufTy).Contents (Elt Ideal))
variable (b : Fin 32)

/-- P (p, d) is X0 (b, p, d). -/
theorem pmat_at (h0 : ∀ (r : Fin 1024) (d : Fin 512), x0 (ix3 (0 : Fin 1) r d) = X0 (ix3 b r d)) (p : Fin 1024) (d : Fin 512) :
    pmat x0 (ix2 p d) = X0 (ix3 b p d) :=
  (shapeCast_1ab_ab_apply (a := 1024) (b := 512) x0 shapeCasts_S1x1024x512_S1024x512 p d).trans (h0 p d)

/-- Q (q, d) is X1 (b, q, d). -/
theorem qmat_at (h1 : ∀ (r : Fin 1024) (d : Fin 512), x1 (ix3 (0 : Fin 1) r d) = X1 (ix3 b r d)) (q : Fin 1024) (d : Fin 512) :
    k0_pay4 x1 (ix2 q d) = X1 (ix3 b q d) :=
  (shapeCast_1ab_ab_apply (a := 1024) (b := 512) x1 shapeCasts_S1x1024x512_S1024x512 q d).trans (h1 q d)

/-! ## The scaled products -/

theorem logits1_eq (p q : Fin 1024) :
    logits1 x0 x1 (ix2 p q) = (∑ k : Fin 512, pmat x0 (ix2 p k) * k0_pay4 x1 (ix2 q k)) * Ideal.ofBits .f32 0x3D3504F3#32 :=
  congrArg (· * Ideal.ofBits .f32 0x3D3504F3#32)
    (LibMatmulNT.matmul_zero_nt_ix2 dot_S1024x512_S1024x512_S1024x1024_1_1_0_0_n_n rfl rfl d_pq_l0
      (fun i k => dot_S1024x512_S1024x512_S1024x1024_1_1_0_0_n_n.lhsIdx_val_of_single rfl i k) d_pq_r0
      (fun i k => dot_S1024x512_S1024x512_S1024x1024_1_1_0_0_n_n.rhsIdx_val_of_single rfl i k) none (pmat x0) (k0_pay4 x1) p q)

theorem lidx_v0 (p q : Fin 1024) (k : Fin 512) : lidx_main_v0 (ix3 b p q) k = ix3 b p k := by
  funext a; apply Fin.ext
  match a with
  | ⟨0, _⟩ => rfl
  | ⟨1, _⟩ => rfl
  | ⟨2, _⟩ => rfl
theorem ridx_v0 (p q : Fin 1024) (k : Fin 512) : ridx_main_v0 (ix3 b p q) k = ix3 b q k := by
  funext a; apply Fin.ext
  match a with
  | ⟨0, _⟩ => rfl
  | ⟨1, _⟩ => rfl
  | ⟨2, _⟩ => rfl

theorem logits1_at (h0 : ∀ (r : Fin 1024) (d : Fin 512), x0 (ix3 (0 : Fin 1) r d) = X0 (ix3 b r d))
    (h1 : ∀ (r : Fin 1024) (d : Fin 512), x1 (ix3 (0 : Fin 1) r d) = X1 (ix3 b r d)) (p q : Fin 1024) :
    logits1 x0 x1 (ix2 p q) = val_main_v2 (F := Ideal) X0 X1 (ix3 b p q) := by
  rw [logits1_eq, val_main_v2_apply, val_main_v0_apply, val_main_v1_apply, val_main_cst_apply]
  refine congrArg (· * Ideal.ofBits .f32 0x3D3504F3#32) (Finset.sum_congr rfl fun k _ => ?_)
  rw [pmat_at x0 X0 b h0 p k, qmat_at x1 X1 b h1 q k, lidx_v0, ridx_v0]

/-! ## Row maxima -/

theorem rowmax1_eq (p : Fin 1024) :
    rowmax1 x0 x1 (ix1 p) = (Finset.univ : Finset (Fin 1024)).fold max (Ideal.ofBits .f32 0xFF800000#32) (fun k => logits1 x0 x1 (ix2 p k)) :=
  LibRowReduce.multiReduction_maximumf_rows (A := 1024) (B := 1024) (logits1 x0 x1) 0xFF800000#32 reduces_S1024x1024_S1024 (.inl rfl) rfl p

/-- The reference's row maximum: the reduction from −∞, and the maximum with −∞ taken once more, which is absorbed. -/
theorem ref_rowmax1 (n : Fin 32) (p : Fin 1024) :
    val_main_v5 (F := Ideal) X0 X1 (ix2 n p)
      = (Finset.univ : Finset (Fin 1024)).fold max (Ideal.ofBits .f32 0xFF800000#32) (fun k => val_main_v2 (F := Ideal) X0 X1 (ix3 n p k)) := by
  have h3 : val_main_v3 (F := Ideal) X0 X1 (ix2 n p)
      = (Finset.univ : Finset (Fin 1024)).fold max (Ideal.ofBits .f32 0xFF800000#32) (fun k => val_main_v2 (F := Ideal) X0 X1 (ix3 n p k)) :=
    LibRowReduce.hostReduce_last3 (N := 32) (A := 1024) (B := 1024) (FloatOps.maximumf (F := Ideal) (φ := .f32))
      (val_main_v2 (F := Ideal) X0 X1) (val_main_cst_0 (F := Ideal)) Cert.ReferenceIdeal.Gen.reducesTo_S32x1024x1024_S32x1024_d2
      (by decide) Cert.ReferenceIdeal.Gen.h_S_ n p
  rw [val_main_v5_apply, val_main_v4_apply, val_main_cst_1_apply, h3]
  exact LibRowReduce.max_fold_max_self _ _ _

theorem rowmax1_at (h0 : ∀ (r : Fin 1024) (d : Fin 512), x0 (ix3 (0 : Fin 1) r d) = X0 (ix3 b r d))
    (h1 : ∀ (r : Fin 1024) (d : Fin 512), x1 (ix3 (0 : Fin 1) r d) = X1 (ix3 b r d)) (p : Fin 1024) :
    rowmax1 x0 x1 (ix1 p) = val_main_v5 (F := Ideal) X0 X1 (ix2 b p) := by
  rw [rowmax1_eq, ref_rowmax1]
  exact congrArg (fun f => (Finset.univ : Finset (Fin 1024)).fold max (Ideal.ofBits .f32 0xFF800000#32) f)
    (funext fun k => logits1_at x0 x1 X0 X1 b h0 h1 p k)

/-! ## The exponentials -/

/-- A row statistic kept as a column and spread over the row again is, at (p, q), the statistic of row p. -/
theorem keep1 (m : FVec Ideal S1024 .f32) (p q : Fin 1024) :
    broadcastTo S1024x1024 (shapeCast S1024x1 m shapeCasts_S1024_S1024x1) broadcasts_S1024x1_S1024x1024 (ix2 p q) = m (ix1 p) :=
  (LibKeepdims.broadcastTo_a1_ab_apply (a := 1024) (b := 1024) _ broadcasts_S1024x1_S1024x1024 p q).trans
    (LibKeepdims.shapeCast_a_a1_apply (a := 1024) m shapeCasts_S1024_S1024x1 p 0)

theorem expo1_eq (p q : Fin 1024) :
    expo1 x0 x1 (ix2 p q) = Ideal.exp (logits1 x0 x1 (ix2 p q) - rowmax1 x0 x1 (ix1 p)) :=
  congrArg (fun u => Ideal.exp (logits1 x0 x1 (ix2 p q) - u)) (keep1 (rowmax1 x0 x1) p q)

theorem idx_v6v7 (n : Fin 32) (p q : Fin 1024) : idx_main_v6 (idx_main_v7 (ix3 n p q)) = ix2 n p := by
  funext a; apply Fin.ext
  match a with
  | ⟨0, _⟩ => rfl
  | ⟨1, _⟩ => rfl

theorem expo1_at (h0 : ∀ (r : Fin 1024) (d : Fin 512), x0 (ix3 (0 : Fin 1) r d) = X0 (ix3 b r d))
    (h1 : ∀ (r : Fin 1024) (d : Fin 512), x1 (ix3 (0 : Fin 1) r d) = X1 (ix3 b r d)) (p q : Fin 1024) :
    expo1 x0 x1 (ix2 p q) = val_main_v9 (F := Ideal) X0 X1 (ix3 b p q) := by
  rw [expo1_eq, val_main_v9_apply, val_main_v8_apply, val_main_v7_apply, val_main_v6_apply, idx_v6v7,
    logits1_at x0 x1 X0 X1 b h0 h1, rowmax1_at x0 x1 X0 X1 b h0 h1]
  rfl

/-! ## The row sums -/

theorem rowsum1_eq (p : Fin 1024) : rowsum1 x0 x1 (ix1 p) = ∑ k : Fin 1024, expo1 x0 x1 (ix2 p k) :=
  LibRowReduce.multiReduction_add_rows (A := 1024) (B := 1024) (expo1 x0 x1) 0x00000000#32 reduces_S1024x1024_S1024 (.inl rfl) rfl p

theorem idx_v10 (n : Fin 32) (p k : Fin 1024) : idx_main_v10 (ix2 n p) k = ix3 n p k := by
  funext a; apply Fin.ext
  match a with
  | ⟨0, _⟩ => rfl
  | ⟨1, _⟩ => rfl
  | ⟨2, _⟩ => rfl

theorem rowsum1_at (h0 : ∀ (r : Fin 1024) (d : Fin 512), x0 (ix3 (0 : Fin 1) r d) = X0 (ix3 b r d))
    (h1 : ∀ (r : Fin 1024) (d : Fin 512), x1 (ix3 (0 : Fin 1) r d) = X1 (ix3 b r d)) (p : Fin 1024) :
    rowsum1 x0 x1 (ix1 p) = val_main_v10 (F := Ideal) X0 X1 (ix2 b p) := by
  rw [rowsum1_eq, val_main_v10_apply, val_main_cst_2_apply]
  simp only [Ideal.ofBits_def, Ideal.ofBits_zero_f32, zero_add]
  refine Finset.sum_congr rfl fun k _ => ?_
  rw [idx_v10, expo1_at x0 x1 X0 X1 b h0 h1]

/-! ## The softmax -/

theorem attn1_eq (p q : Fin 1024) :
    attn1 x0 x1 (ix2 p q) = Ideal.div (expo1 x0 x1 (ix2 p q)) (rowsum1 x0 x1 (ix1 p)) :=
  congrArg (fun u => Ideal.div (expo1 x0 x1 (ix2 p q)) u) (keep1 (rowsum1 x0 x1) p q)

theorem idx_v11v12 (n : Fin 32) (p q : Fin 1024) : idx_main_v11 (idx_main_v12 (ix3 n p q)) = ix2 n p := by
  funext a; apply Fin.ext
  match a with
  | ⟨0, _⟩ => rfl
  | ⟨1, _⟩ => rfl

theorem attn1_at (h0 : ∀ (r : Fin 1024) (d : Fin 512), x0 (ix3 (0 : Fin 1) r d) = X0 (ix3 b r d))
    (h1 : ∀ (r : Fin 1024) (d : Fin 512), x1 (ix3 (0 : Fin 1) r d) = X1 (ix3 b r d)) (p q : Fin 1024) :
    attn1 x0 x1 (ix2 p q) = val_main_v13 (F := Ideal) X0 X1 (ix3 b p q) := by
  rw [attn1_eq, val_main_v13_apply, val_main_v12_apply, val_main_v11_apply, idx_v11v12,
    expo1_at x0 x1 X0 X1 b h0 h1, rowsum1_at x0 x1 X0 X1 b h0 h1]
  rfl

/-! ## The first stored block -/

theorem out1_eq (p : Fin 1024) (d : Fin 512) :
    k0_pay5 x0 x1 (ix3 (0 : Fin 1) p d) = ∑ k : Fin 1024, attn1 x0 x1 (ix2 p k) * k0_pay4 x1 (ix2 k d) := by
  rw [pay5_eq]
  exact (shapeCast_ab_1ab_apply (a := 1024) (b := 512) _ shapeCasts_S1024x512_S1x1024x512 0 p d).trans
    (LibMatmul.matmul_zero_ix2 dot_S1024x1024_S1024x512_S1024x512_1_0_0_1_n_n rfl rfl d_aq_l0
      (fun i k => dot_S1024x1024_S1024x512_S1024x512_1_0_0_1_n_n.lhsIdx_val_of_single rfl i k)
      (fun i k => dot_S1024x1024_S1024x512_S1024x512_1_0_0_1_n_n.rhsIdx_val_of_single rfl i k) d_aq_r1 none
      (attn1 x0 x1) (k0_pay4 x1) p d)

theorem lidx_v28 (n : Fin 32) (p : Fin 1024) (d : Fin 512) (k : Fin 1024) : lidx_main_v28 (ix3 n p d) k = ix3 n p k := by
  funext a; apply Fin.ext
  match a with
  | ⟨0, _⟩ => rfl
  | ⟨1, _⟩ => rfl
  | ⟨2, _⟩ => rfl
theorem ridx_v28 (n : Fin 32) (p : Fin 1024) (d : Fin 512) (k : Fin 1024) : ridx_main_v28 (ix3 n p d) k = ix3 n k d := by
  funext a; apply Fin.ext
  match a with
  | ⟨0, _⟩ => rfl
  | ⟨1, _⟩ => rfl
  | ⟨2, _⟩ => rfl

/-- The first stored block is batch b of the reference's third result. -/
theorem out1_at (h0 : ∀ (r : Fin 1024) (d : Fin 512), x0 (ix3 (0 : Fin 1) r d) = X0 (ix3 b r d))
    (h1 : ∀ (r : Fin 1024) (d : Fin 512), x1 (ix3 (0 : Fin 1) r d) = X1 (ix3 b r d)) (p : Fin 1024) (d : Fin 512) :
    k0_pay5 x0 x1 (ix3 (0 : Fin 1) p d) = val_main_v28 (F := Ideal) X0 X1 (ix3 b p d) := by
  rw [out1_eq, val_main_v28_apply]
  refine Finset.sum_congr rfl fun k _ => ?_
  rw [lidx_v28, ridx_v28, attn1_at x0 x1 X0 X1 b h0 h1, qmat_at x1 X1 b h1]

end Stream1

end Cert.KernelIdeal.Attn

end
-- ==== Proof.Bridge2.lean ====
/-
  The second softmax stream at one grid point, and the two products that follow it, against the reference.

  Let x1, x2 be the blocks a grid point holds of the second and third arguments, batch b of the whole arrays X1, X2.
  The body's second stream — the scaled products Q Wᵀ · s, their row maxima, exp (x − max), the row sums, the
  quotient, E = (quotient) W and finally E W — agrees, entry by entry, with batch b of the reference's arrays of the
  same stages: the same sums, maxima and quotients of the same numbers, the reference's extra maximum with −∞ absorbed.
-/
import proofs.«121219_j8778913153179_2_alg».proof.Proof.Bridge1

noncomputable section

namespace Cert.KernelIdeal.Attn

open Idealize.ShloMosaic Idealize.ShloMosaic.ValueIdx Cert.KernelIdeal Cert.KernelIdeal.Gen
open Cert.ReferenceIdeal.Read

/-! ## The two dimension records of the second stream, by coordinates -/

section Dims

/-- Q Wᵀ: entry (q, v) reads row q of the left operand and row v of the right. -/
theorem d_qw_l0 (i : S1024x512.Idx) (k : dot_S1024x512_S512x512_S1024x512_1_1_0_0_n_n.contr.Idx) :
    (dot_S1024x512_S512x512_S1024x512_1_1_0_0_n_n.lhsIdx i k (0 : Fin 2)).val = (i (0 : Fin 2)).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem d_qw_r0 (i : S1024x512.Idx) (k : dot_S1024x512_S512x512_S1024x512_1_1_0_0_n_n.contr.Idx) :
    (dot_S1024x512_S512x512_S1024x512_1_1_0_0_n_n.rhsIdx i k (0 : Fin 2)).val = (i (1 : Fin 2)).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl

/-- A 1024 × 512 matrix times W: entry (q, d) reads row q of the left operand and column d of the right. -/
theorem d_aw_l0 (i : S1024x512.Idx) (k : dot_S1024x512_S512x512_S1024x512_1_0_0_1_n_n.contr.Idx) :
    (dot_S1024x512_S512x512_S1024x512_1_0_0_1_n_n.lhsIdx i k (0 : Fin 2)).val = (i (0 : Fin 2)).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem d_aw_r1 (i : S1024x512.Idx) (k : dot_S1024x512_S512x512_S1024x512_1_0_0_1_n_n.contr.Idx) :
    (dot_S1024x512_S512x512_S1024x512_1_0_0_1_n_n.rhsIdx i k (1 : Fin 2)).val = (i (1 : Fin 2)).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

end Dims

section Stream2

variable (x1 : Vec Ideal S1x1024x512 .f32) (x2 : Vec Ideal S1x512x512 .f32)
variable (X1 : (⟨Cert.ReferenceIdeal.S32x1024x512, .f32⟩ : BufTy).Contents (Elt Ideal))
variable (X2 : (⟨Cert.ReferenceIdeal.S32x512x512, .f32⟩ : BufTy).Contents (Elt Ideal))
variable (b : Fin 32)

/-- W (v, d) is X2 (b, v, d). -/
theorem wmat_at (h2 : ∀ (r : Fin 512) (d : Fin 512), x2 (ix3 (0 : Fin 1) r d) = X2 (ix3 b r d)) (v d : Fin 512) :
    k0_pay6 x2 (ix2 v d) = X2 (ix3 b v d) :=
  (shapeCast_1ab_ab_apply (a := 512) (b := 512) x2 shapeCasts_S1x512x512_S512x512 v d).trans (h2 v d)

/-! ## The scaled products -/

theorem logits2_eq (q : Fin 1024) (v : Fin 512) :
    logits2 x1 x2 (ix2 q v) = (∑ k : Fin 512, k0_pay4 x1 (ix2 q k) * k0_pay6 x2 (ix2 v k)) * Ideal.ofBits .f32 0x3D3504F3#32 :=
  congrArg (· * Ideal.ofBits .f32 0x3D3504F3#32)
    (LibMatmulNT.matmul_zero_nt_ix2 dot_S1024x512_S512x512_S1024x512_1_1_0_0_n_n rfl rfl d_qw_l0
      (fun i k => dot_S1024x512_S512x512_S1024x512_1_1_0_0_n_n.lhsIdx_val_of_single rfl i k) d_qw_r0
      (fun i k => dot_S1024x512_S512x512_S1024x512_1_1_0_0_n_n.rhsIdx_val_of_single rfl i k) none (k0_pay4 x1) (k0_pay6 x2) q v)

theorem lidx_v14 (n : Fin 32) (q : Fin 1024) (v k : Fin 512) : lidx_main_v14 (ix3 n q v) k = ix3 n q k := by
  funext a; apply Fin.ext
  match a with
  | ⟨0, _⟩ => rfl
  | ⟨1, _⟩ => rfl
  | ⟨2, _⟩ => rfl
theorem ridx_v14 (n : Fin 32) (q : Fin 1024) (v k : Fin 512) : ridx_main_v14 (ix3 n q v) k = ix3 n v k := by
  funext a; apply Fin.ext
  match a with
  | ⟨0, _⟩ => rfl
  | ⟨1, _⟩ => rfl
  | ⟨2, _⟩ => rfl

theorem logits2_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) (v : Fin 512) :
    logits2 x1 x2 (ix2 q v) = val_main_v16 (F := Ideal) X1 X2 (ix3 b q v) := by
  rw [logits2_eq, val_main_v16_apply, val_main_v14_apply, val_main_v15_apply, val_main_cst_3_apply]
  refine congrArg (· * Ideal.ofBits .f32 0x3D3504F3#32) (Finset.sum_congr rfl fun k _ => ?_)
  rw [qmat_at x1 X1 b h1 q k, wmat_at x2 X2 b h2 v k, lidx_v14, ridx_v14]

/-! ## Row maxima -/

theorem rowmax2_eq (q : Fin 1024) :
    rowmax2 x1 x2 (ix1 q) = (Finset.univ : Finset (Fin 512)).fold max (Ideal.ofBits .f32 0xFF800000#32) (fun k => logits2 x1 x2 (ix2 q k)) :=
  LibRowReduce.multiReduction_maximumf_rows (A := 1024) (B := 512) (logits2 x1 x2) 0xFF800000#32 reduces_S1024x512_S1024 (.inl rfl) rfl q

/-- The reference's row maximum: the reduction from −∞, and the maximum with −∞ taken once more, which is absorbed. -/
theorem ref_rowmax2 (n : Fin 32) (q : Fin 1024) :
    val_main_v19 (F := Ideal) X1 X2 (ix2 n q)
      = (Finset.univ : Finset (Fin 512)).fold max (Ideal.ofBits .f32 0xFF800000#32) (fun k => val_main_v16 (F := Ideal) X1 X2 (ix3 n q k)) := by
  have h3 : val_main_v17 (F := Ideal) X1 X2 (ix2 n q)
      = (Finset.univ : Finset (Fin 512)).fold max (Ideal.ofBits .f32 0xFF800000#32) (fun k => val_main_v16 (F := Ideal) X1 X2 (ix3 n q k)) :=
    LibRowReduce.hostReduce_last3 (N := 32) (A := 1024) (B := 512) (FloatOps.maximumf (F := Ideal) (φ := .f32))
      (val_main_v16 (F := Ideal) X1 X2) (val_main_cst_4 (F := Ideal)) Cert.ReferenceIdeal.Gen.reducesTo_S32x1024x512_S32x1024_d2
      (by decide) Cert.ReferenceIdeal.Gen.h_S_ n q
  rw [val_main_v19_apply, val_main_v18_apply, val_main_cst_5_apply, h3]
  exact LibRowReduce.max_fold_max_self _ _ _

theorem rowmax2_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) :
    rowmax2 x1 x2 (ix1 q) = val_main_v19 (F := Ideal) X1 X2 (ix2 b q) := by
  rw [rowmax2_eq, ref_rowmax2]
  exact congrArg (fun f => (Finset.univ : Finset (Fin 512)).fold max (Ideal.ofBits .f32 0xFF800000#32) f)
    (funext fun k => logits2_at x1 x2 X1 X2 b h1 h2 q k)

/-! ## The exponentials -/

/-- A row statistic kept as a column and spread over the row again is, at (q, v), the statistic of row q. -/
theorem keep2 (m : FVec Ideal S1024 .f32) (q : Fin 1024) (v : Fin 512) :
    broadcastTo S1024x512 (shapeCast S1024x1 m shapeCasts_S1024_S1024x1) broadcasts_S1024x1_S1024x512 (ix2 q v) = m (ix1 q) :=
  (LibKeepdims.broadcastTo_a1_ab_apply (a := 1024) (b := 512) _ broadcasts_S1024x1_S1024x512 q v).trans
    (LibKeepdims.shapeCast_a_a1_apply (a := 1024) m shapeCasts_S1024_S1024x1 q 0)

theorem expo2_eq (q : Fin 1024) (v : Fin 512) :
    k0_pay7 x1 x2 (ix2 q v) = Ideal.exp (logits2 x1 x2 (ix2 q v) - rowmax2 x1 x2 (ix1 q)) :=
  (congrFun (pay7_eq x1 x2) (ix2 q v)).trans
    (congrArg (fun u => Ideal.exp (logits2 x1 x2 (ix2 q v) - u)) (keep2 (rowmax2 x1 x2) q v))

theorem idx_v20v21 (n : Fin 32) (q : Fin 1024) (v : Fin 512) : idx_main_v20 (idx_main_v21 (ix3 n q v)) = ix2 n q := by
  funext a; apply Fin.ext
  match a with
  | ⟨0, _⟩ => rfl
  | ⟨1, _⟩ => rfl

theorem expo2_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) (v : Fin 512) :
    k0_pay7 x1 x2 (ix2 q v) = val_main_v23 (F := Ideal) X1 X2 (ix3 b q v) := by
  rw [expo2_eq, val_main_v23_apply, val_main_v22_apply, val_main_v21_apply, val_main_v20_apply, idx_v20v21,
    logits2_at x1 x2 X1 X2 b h1 h2, rowmax2_at x1 x2 X1 X2 b h1 h2]
  rfl

/-! ## The row sums -/

theorem rowsum2_eq (q : Fin 1024) : rowsum2 x1 x2 (ix1 q) = ∑ k : Fin 512, k0_pay7 x1 x2 (ix2 q k) :=
  LibRowReduce.multiReduction_add_rows (A := 1024) (B := 512) (k0_pay7 x1 x2) 0x00000000#32 reduces_S1024x512_S1024 (.inl rfl) rfl q

theorem idx_v24 (n : Fin 32) (q : Fin 1024) (k : Fin 512) : idx_main_v24 (ix2 n q) k = ix3 n q k := by
  funext a; apply Fin.ext
  match a with
  | ⟨0, _⟩ => rfl
  | ⟨1, _⟩ => rfl
  | ⟨2, _⟩ => rfl

theorem rowsum2_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) :
    rowsum2 x1 x2 (ix1 q) = val_main_v24 (F := Ideal) X1 X2 (ix2 b q) := by
  rw [rowsum2_eq, val_main_v24_apply, val_main_cst_6_apply]
  simp only [Ideal.ofBits_def, Ideal.ofBits_zero_f32, zero_add]
  refine Finset.sum_congr rfl fun k _ => ?_
  rw [idx_v24, expo2_at x1 x2 X1 X2 b h1 h2]

/-! ## The softmax -/

theorem attn2_eq (q : Fin 1024) (v : Fin 512) :
    attn2 x1 x2 (ix2 q v) = Ideal.div (k0_pay7 x1 x2 (ix2 q v)) (rowsum2 x1 x2 (ix1 q)) :=
  congrArg (fun u => Ideal.div (k0_pay7 x1 x2 (ix2 q v)) u)
    ((congrFun (pay8_eq x1 x2) (ix2 q v)).trans (keep2 (rowsum2 x1 x2) q v))

theorem idx_v25v26 (n : Fin 32) (q : Fin 1024) (v : Fin 512) : idx_main_v25 (idx_main_v26 (ix3 n q v)) = ix2 n q := by
  funext a; apply Fin.ext
  match a with
  | ⟨0, _⟩ => rfl
  | ⟨1, _⟩ => rfl

theorem attn2_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) (v : Fin 512) :
    attn2 x1 x2 (ix2 q v) = val_main_v27 (F := Ideal) X1 X2 (ix3 b q v) := by
  rw [attn2_eq, val_main_v27_apply, val_main_v26_apply, val_main_v25_apply, idx_v25v26,
    expo2_at x1 x2 X1 X2 b h1 h2, rowsum2_at x1 x2 X1 X2 b h1 h2]
  rfl

/-! ## E = (softmax) W, the second stored block -/

theorem energy_ent (q : Fin 1024) (d : Fin 512) :
    energy x1 x2 (ix2 q d) = ∑ k : Fin 512, attn2 x1 x2 (ix2 q k) * k0_pay6 x2 (ix2 k d) := by
  rw [energy_eq]
  exact LibMatmul.matmul_zero_ix2 dot_S1024x512_S512x512_S1024x512_1_0_0_1_n_n rfl rfl d_aw_l0
      (fun i k => dot_S1024x512_S512x512_S1024x512_1_0_0_1_n_n.lhsIdx_val_of_single rfl i k)
      (fun i k => dot_S1024x512_S512x512_S1024x512_1_0_0_1_n_n.rhsIdx_val_of_single rfl i k) d_aw_r1 none
      (attn2 x1 x2) (k0_pay6 x2) q d

theorem lidx_v29 (n : Fin 32) (q : Fin 1024) (d k : Fin 512) : lidx_main_v29 (ix3 n q d) k = ix3 n q k := by
  funext a; apply Fin.ext
  match a with
  | ⟨0, _⟩ => rfl
  | ⟨1, _⟩ => rfl
  | ⟨2, _⟩ => rfl
theorem ridx_v29 (n : Fin 32) (q : Fin 1024) (d k : Fin 512) : ridx_main_v29 (ix3 n q d) k = ix3 n k d := by
  funext a; apply Fin.ext
  match a with
  | ⟨0, _⟩ => rfl
  | ⟨1, _⟩ => rfl
  | ⟨2, _⟩ => rfl

theorem energy_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) (d : Fin 512) :
    energy x1 x2 (ix2 q d) = val_main_v29 (F := Ideal) X1 X2 (ix3 b q d) := by
  rw [energy_ent, val_main_v29_apply]
  refine Finset.sum_congr rfl fun k _ => ?_
  rw [lidx_v29, ridx_v29, attn2_at x1 x2 X1 X2 b h1 h2, wmat_at x2 X2 b h2]

/-- The second stored block is batch b of the reference's second result. -/
theorem out2_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) (d : Fin 512) :
    k0_pay2 (k0_pay6 x2) (k0_pay7 x1 x2) (k0_pay8 x1 x2) (ix3 (0 : Fin 1) q d) = val_main_v29 (F := Ideal) X1 X2 (ix3 b q d) := by
  rw [pay2_eq]
  exact (shapeCast_ab_1ab_apply (a := 1024) (b := 512) _ shapeCasts_S1024x512_S1x1024x512 0 q d).trans
    (energy_at x1 x2 X1 X2 b h1 h2 q d)

/-! ## E W, the third stored block -/

theorem out3_eq (q : Fin 1024) (d : Fin 512) :
    k0_pay3 (k0_pay6 x2) (k0_pay7 x1 x2) (k0_pay8 x1 x2) (ix3 (0 : Fin 1) q d)
      = ∑ k : Fin 512, energy x1 x2 (ix2 q k) * k0_pay6 x2 (ix2 k d) := by
  rw [pay3_eq]
  exact (shapeCast_ab_1ab_apply (a := 1024) (b := 512) _ shapeCasts_S1024x512_S1x1024x512 0 q d).trans
    (LibMatmul.matmul_zero_ix2 dot_S1024x512_S512x512_S1024x512_1_0_0_1_n_n rfl rfl d_aw_l0
      (fun i k => dot_S1024x512_S512x512_S1024x512_1_0_0_1_n_n.lhsIdx_val_of_single rfl i k)
      (fun i k => dot_S1024x512_S512x512_S1024x512_1_0_0_1_n_n.rhsIdx_val_of_single rfl i k) d_aw_r1 none
      (truncf .bf16 (energy x1 x2) bitsLt_bf16_f32) (k0_pay6 x2) q d)

theorem lidx_v30 (n : Fin 32) (q : Fin 1024) (d k : Fin 512) : lidx_main_v30 (ix3 n q d) k = ix3 n q k := by
  funext a; apply Fin.ext
  match a with
  | ⟨0, _⟩ => rfl
  | ⟨1, _⟩ => rfl
  | ⟨2, _⟩ => rfl
theorem ridx_v30 (n : Fin 32) (q : Fin 1024) (d k : Fin 512) : ridx_main_v30 (ix3 n q d) k = ix3 n k d := by
  funext a; apply Fin.ext
  match a with
  | ⟨0, _⟩ => rfl
  | ⟨1, _⟩ => rfl
  | ⟨2, _⟩ => rfl

/-- The third stored block is batch b of the reference's first result. -/
theorem out3_at (h1 : ∀ (r : Fin 1024) (d : Fin 512), x1 (ix3 (0 : Fin 1) r d) = X1 (ix3 b r d))
    (h2 : ∀ (r : Fin 512) (d : Fin 512), x2 (ix3 (0 : Fin 1) r d) = X2 (ix3 b r d)) (q : Fin 1024) (d : Fin 512) :
    k0_pay3 (k0_pay6 x2) (k0_pay7 x1 x2) (k0_pay8 x1 x2) (ix3 (0 : Fin 1) q d) = val_main_v30 (F := Ideal) X1 X2 (ix3 b q d) := by
  rw [out3_eq, val_main_v30_apply]
  refine Finset.sum_congr rfl fun k _ => ?_
  rw [lidx_v30, ridx_v30, energy_at x1 x2 X1 X2 b h1 h2, wmat_at x2 X2 b h2]

end Stream2

end Cert.KernelIdeal.Attn

end
-- ==== Proof.Blocks.lean ====
/-
  From the blocks to the arrays.

  The grid has 32 points; at point t every window's block is batch t of its array: block index (t, 0, 0) with block
  sizes 1 × 1024 × 512 (1 × 512 × 512 for the third argument). So what point t writes back through an output window
  is batch t of the reference's corresponding array (the stage-by-stage comparison, applied to the input blocks), the
  32 blocks cover the array, and each output array ends holding the reference's array as a whole.
-/
import proofs.«121219_j8778913153179_2_alg».proof.Proof.Gen.KernelIdeal.Value
import proofs.«121219_j8778913153179_2_alg».proof.Proof.Bridge2
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Attn Cert.ReferenceIdeal.Read

variable (m : (ℓ : Loc nD τ sig) → Buf (Elt Ideal) ℓ) (ρ : Dev nD → PrngReg)

theorem hz : (![0, 0, 0] : Fin 3 → Nat) = fun _ => 0 := funext fun a => by fin_cases a <;> rfl

/-- The batch a grid point works on. -/
abbrev bt (t : Fin cfg0.N) : Fin 32 := Fin.cast N_0 t

/-! ## The printed index maps, decided over the grid: every window's block index at point t is (t, 0, 0) -/

theorem idx_facts3 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem idx_facts4 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem idx_facts5 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-! ## The input blocks -/

/-- Input window 0's block at point t is batch t of its array. -/
theorem iblk0_at (c : Dev nD) (t : Fin cfg0.N) (r : Fin 1024) (d : Fin 512) :
    (iblk m c 0 t : Vec Ideal S1x1024x512 .f32) (ix3 (0 : Fin 1) r d)
      = (V m c main_arg0 : S32x1024x512.Idx → Elt Ideal .f32) (ix3 (bt t) r d) := by
  obtain ⟨⟨a0, a1, a2⟩, ⟨b0, b1, b2⟩, ⟨c0, c1, c2⟩, -⟩ := idx_facts3 t
  unfold iblk
  rw [View.read_apply]
  show V m c main_arg0 _ = V m c main_arg0 _
  congr 1
  funext a; apply Fin.ext
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 512 + 1 * d.val = d.val; omega

/-- Input window 1's block at point t is batch t of its array. -/
theorem iblk1_at (c : Dev nD) (t : Fin cfg0.N) (r : Fin 1024) (d : Fin 512) :
    (iblk m c 1 t : Vec Ideal S1x1024x512 .f32) (ix3 (0 : Fin 1) r d)
      = (V m c main_arg1 : S32x1024x512.Idx → Elt Ideal .f32) (ix3 (bt t) r d) := by
  obtain ⟨⟨a0, a1, a2⟩, ⟨b0, b1, b2⟩, ⟨c0, c1, c2⟩, -⟩ := idx_facts3 t
  unfold iblk
  rw [View.read_apply]
  show V m c main_arg1 _ = V m c main_arg1 _
  congr 1
  funext a; apply Fin.ext
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 512 + 1 * d.val = d.val; omega

/-- Input window 2's block at point t is batch t of its array. -/
theorem iblk2_at (c : Dev nD) (t : Fin cfg0.N) (r : Fin 512) (d : Fin 512) :
    (iblk m c 2 t : Vec Ideal S1x512x512 .f32) (ix3 (0 : Fin 1) r d)
      = (V m c main_arg2 : S32x512x512.Idx → Elt Ideal .f32) (ix3 (bt t) r d) := by
  obtain ⟨⟨a0, a1, a2⟩, ⟨b0, b1, b2⟩, ⟨c0, c1, c2⟩, -⟩ := idx_facts3 t
  unfold iblk
  rw [View.read_apply]
  show V m c main_arg2 _ = V m c main_arg2 _
  congr 1
  funext a; apply Fin.ext
  match a with
  | ⟨0, _⟩ => show win0_2.index t (0 : Fin 3) * 1 + 1 * 0 = t.val; omega
  | ⟨1, _⟩ => show win0_2.index t (1 : Fin 3) * 512 + 1 * r.val = r.val; omega
  | ⟨2, _⟩ => show win0_2.index t (2 : Fin 3) * 512 + 1 * d.val = d.val; omega

/-! ## Output window 3: (softmax₁) Q -/

/-- What point t writes back through output window 3 is block t of the reference's array. -/
theorem flushed3_eq (c : Dev nD) (t : Fin cfg0.N) :
    (dats m 0 c).flushed 3 t = ((cfg0.win 3).blk t).view.read (Elt Ideal) (val_main_v28 (F := Ideal) (V m c main_arg0) (V m c main_arg1)) := by
  rw [Value.flushed3]
  unfold out0_3
  rw [View.canon_unit_zero hz]
  simp only [View.ld_unit_zero (S := S1x1024x512) hz, View.ld_unit_zero (S := S1x512x512) hz]
  obtain ⟨-, -, -, ⟨e0, e1, e2⟩⟩ := idx_facts3 t
  funext j
  obtain ⟨u, r, d, rfl⟩ : ∃ (u : Fin 1) (r : Fin 1024) (d : Fin 512), j = ix3 u r d := ⟨j 0, j 1, j 2, eq_ix3 j⟩
  obtain rfl : u = 0 := Fin.ext (by omega)
  show k0_pay5 (iblk m c 0 t) (iblk m c 1 t) (ix3 (0 : Fin 1) r d)
    = val_main_v28 (F := Ideal) (V m c main_arg0) (V m c main_arg1) (((cfg0.win 3).blk t).view.emb (ix3 (0 : Fin 1) r d))
  have he : ((cfg0.win 3).blk t).view.emb (ix3 (0 : Fin 1) r d) = (ix3 (bt t) r d : S32x1024x512.Idx) := by
    funext a; apply Fin.ext
    match a with
    | ⟨0, _⟩ => show win0_3.index t (0 : Fin 3) * 1 + 1 * 0 = t.val; omega
    | ⟨1, _⟩ => show win0_3.index t (1 : Fin 3) * 1024 + 1 * r.val = r.val; omega
    | ⟨2, _⟩ => show win0_3.index t (2 : Fin 3) * 512 + 1 * d.val = d.val; omega
  rw [he]
  exact out1_at (iblk m c 0 t) (iblk m c 1 t) (V m c main_arg0) (V m c main_arg1) (bt t) (iblk0_at m c t) (iblk1_at m c t) r d

/-- An index of the array is in point t's block of window 3 iff each coordinate is in the block's range. -/
theorem mem_blk3 (t : Fin cfg0.N) (i : S32x1024x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v0_0).slice (win0_3.rect t)).set ↔ _
  rw [View.set_slice_whole, Rect.mem_set_unit]
  exact Iff.rfl

/-- Every index (n, r, d) of the array lies in the block of the point n. -/
theorem cover3 (i : S32x1024x512.Idx) : ∃ t : Fin cfg0.N, (cfg0.win 3).flush t = true ∧ i ∈ ((cfg0.win 3).blk t).view.set := by
  have h0 : (i 0).val < 32 := (i 0).isLt
  have h1 : (i 1).val < 1024 := (i 1).isLt
  have h2 : (i 2).val < 512 := (i 2).isLt
  obtain ⟨t, ht⟩ : ∃ t : Fin cfg0.N, t.val = (i 0).val := ⟨Fin.cast N_0.symm ⟨(i 0).val, h0⟩, rfl⟩
  obtain ⟨-, -, -, ⟨e0, e1, e2⟩⟩ := idx_facts3 t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- So output window 3's array ends holding the reference's array. -/
theorem final3 (c : Dev nD) : (dats m 0 c).arrAt 3 cfg0.N = val_main_v28 (F := Ideal) (V m c main_arg0) (V m c main_arg1) :=
  (dats m 0 c).arrAt_eq_of_cover 3 (val_main_v28 (F := Ideal) (V m c main_arg0) (V m c main_arg1)) (fun t _ => flushed3_eq m c t) cover3

/-! ## Output window 4: E = (softmax₂) W -/

/-- What point t writes back through output window 4 is block t of the reference's array. -/
theorem flushed4_eq (c : Dev nD) (t : Fin cfg0.N) :
    (dats m 0 c).flushed 4 t = ((cfg0.win 4).blk t).view.read (Elt Ideal) (val_main_v29 (F := Ideal) (V m c main_arg1) (V m c main_arg2)) := by
  rw [Value.flushed4]
  unfold out0_4
  rw [View.canon_unit_zero hz]
  simp only [View.ld_unit_zero (S := S1x1024x512) hz, View.ld_unit_zero (S := S1x512x512) hz]
  obtain ⟨-, -, -, ⟨e0, e1, e2⟩⟩ := idx_facts4 t
  funext j
  obtain ⟨u, r, d, rfl⟩ : ∃ (u : Fin 1) (r : Fin 1024) (d : Fin 512), j = ix3 u r d := ⟨j 0, j 1, j 2, eq_ix3 j⟩
  obtain rfl : u = 0 := Fin.ext (by omega)
  show k0_pay2 (k0_pay6 (iblk m c 2 t)) (k0_pay7 (iblk m c 1 t) (iblk m c 2 t)) (k0_pay8 (iblk m c 1 t) (iblk m c 2 t)) (ix3 (0 : Fin 1) r d)
    = val_main_v29 (F := Ideal) (V m c main_arg1) (V m c main_arg2) (((cfg0.win 4).blk t).view.emb (ix3 (0 : Fin 1) r d))
  have he : ((cfg0.win 4).blk t).view.emb (ix3 (0 : Fin 1) r d) = (ix3 (bt t) r d : S32x1024x512.Idx) := by
    funext a; apply Fin.ext
    match a with
    | ⟨0, _⟩ => show win0_4.index t (0 : Fin 3) * 1 + 1 * 0 = t.val; omega
    | ⟨1, _⟩ => show win0_4.index t (1 : Fin 3) * 1024 + 1 * r.val = r.val; omega
    | ⟨2, _⟩ => show win0_4.index t (2 : Fin 3) * 512 + 1 * d.val = d.val; omega
  rw [he]
  exact out2_at (iblk m c 1 t) (iblk m c 2 t) (V m c main_arg1) (V m c main_arg2) (bt t) (iblk1_at m c t) (iblk2_at m c t) r d

/-- An index of the array is in point t's block of window 4 iff each coordinate is in the block's range. -/
theorem mem_blk4 (t : Fin cfg0.N) (i : S32x1024x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v0_1).slice (win0_4.rect t)).set ↔ _
  rw [View.set_slice_whole, Rect.mem_set_unit]
  exact Iff.rfl

/-- Every index (n, r, d) of the array lies in the block of the point n. -/
theorem cover4 (i : S32x1024x512.Idx) : ∃ t : Fin cfg0.N, (cfg0.win 4).flush t = true ∧ i ∈ ((cfg0.win 4).blk t).view.set := by
  have h0 : (i 0).val < 32 := (i 0).isLt
  have h1 : (i 1).val < 1024 := (i 1).isLt
  have h2 : (i 2).val < 512 := (i 2).isLt
  obtain ⟨t, ht⟩ : ∃ t : Fin cfg0.N, t.val = (i 0).val := ⟨Fin.cast N_0.symm ⟨(i 0).val, h0⟩, rfl⟩
  obtain ⟨-, -, -, ⟨e0, e1, e2⟩⟩ := idx_facts4 t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- So output window 4's array ends holding the reference's array. -/
theorem final4 (c : Dev nD) : (dats m 0 c).arrAt 4 cfg0.N = val_main_v29 (F := Ideal) (V m c main_arg1) (V m c main_arg2) :=
  (dats m 0 c).arrAt_eq_of_cover 4 (val_main_v29 (F := Ideal) (V m c main_arg1) (V m c main_arg2)) (fun t _ => flushed4_eq m c t) cover4

/-! ## Output window 5: E W -/

/-- What point t writes back through output window 5 is block t of the reference's array. -/
theorem flushed5_eq (c : Dev nD) (t : Fin cfg0.N) :
    (dats m 0 c).flushed 5 t = ((cfg0.win 5).blk t).view.read (Elt Ideal) (val_main_v30 (F := Ideal) (V m c main_arg1) (V m c main_arg2)) := by
  rw [Value.flushed5]
  unfold out0_5
  rw [View.canon_unit_zero hz]
  simp only [View.ld_unit_zero (S := S1x1024x512) hz, View.ld_unit_zero (S := S1x512x512) hz]
  obtain ⟨-, -, -, ⟨e0, e1, e2⟩⟩ := idx_facts5 t
  funext j
  obtain ⟨u, r, d, rfl⟩ : ∃ (u : Fin 1) (r : Fin 1024) (d : Fin 512), j = ix3 u r d := ⟨j 0, j 1, j 2, eq_ix3 j⟩
  obtain rfl : u = 0 := Fin.ext (by omega)
  show k0_pay3 (k0_pay6 (iblk m c 2 t)) (k0_pay7 (iblk m c 1 t) (iblk m c 2 t)) (k0_pay8 (iblk m c 1 t) (iblk m c 2 t)) (ix3 (0 : Fin 1) r d)
    = val_main_v30 (F := Ideal) (V m c main_arg1) (V m c main_arg2) (((cfg0.win 5).blk t).view.emb (ix3 (0 : Fin 1) r d))
  have he : ((cfg0.win 5).blk t).view.emb (ix3 (0 : Fin 1) r d) = (ix3 (bt t) r d : S32x1024x512.Idx) := by
    funext a; apply Fin.ext
    match a with
    | ⟨0, _⟩ => show win0_5.index t (0 : Fin 3) * 1 + 1 * 0 = t.val; omega
    | ⟨1, _⟩ => show win0_5.index t (1 : Fin 3) * 1024 + 1 * r.val = r.val; omega
    | ⟨2, _⟩ => show win0_5.index t (2 : Fin 3) * 512 + 1 * d.val = d.val; omega
  rw [he]
  exact out3_at (iblk m c 1 t) (iblk m c 2 t) (V m c main_arg1) (V m c main_arg2) (bt t) (iblk1_at m c t) (iblk2_at m c t) r d

/-- An index of the array is in point t's block of window 5 iff each coordinate is in the block's range. -/
theorem mem_blk5 (t : Fin cfg0.N) (i : S32x1024x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v0_2).slice (win0_5.rect t)).set ↔ _
  rw [View.set_slice_whole, Rect.mem_set_unit]
  exact Iff.rfl

/-- Every index (n, r, d) of the array lies in the block of the point n. -/
theorem cover5 (i : S32x1024x512.Idx) : ∃ t : Fin cfg0.N, (cfg0.win 5).flush t = true ∧ i ∈ ((cfg0.win 5).blk t).view.set := by
  have h0 : (i 0).val < 32 := (i 0).isLt
  have h1 : (i 1).val < 1024 := (i 1).isLt
  have h2 : (i 2).val < 512 := (i 2).isLt
  obtain ⟨t, ht⟩ : ∃ t : Fin cfg0.N, t.val = (i 0).val := ⟨Fin.cast N_0.symm ⟨(i 0).val, h0⟩, rfl⟩
  obtain ⟨-, -, -, ⟨e0, e1, e2⟩⟩ := idx_facts5 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- So output window 5's array ends holding the reference's array. -/
theorem final5 (c : Dev nD) : (dats m 0 c).arrAt 5 cfg0.N = val_main_v30 (F := Ideal) (V m c main_arg1) (V m c main_arg2) :=
  (dats m 0 c).arrAt_eq_of_cover 5 (val_main_v30 (F := Ideal) (V m c main_arg1) (V m c main_arg2)) (fun t _ => flushed5_eq m c t) cover5

/-! ## The run, read -/

/-- Every weakly fair execution of the kernel's program ends with its three result arrays at the reference's three
    arrays of the launch contents of the arguments, the arguments unchanged. -/
theorem run : θ_run defs (onTc (τ := τ) (main (F := Ideal))) ⟨m, fun _ => 0, ρ⟩ fun r => ∀ c : Dev nD,
      r.2.mem ((c : Thread nD τ).loc main_v0_2) = val_main_v30 (F := Ideal) (m ((c : Thread nD τ).loc main_arg1)) (m ((c : Thread nD τ).loc main_arg2))
      ∧ r.2.mem ((c : Thread nD τ).loc main_v0_1) = val_main_v29 (F := Ideal) (m ((c : Thread nD τ).loc main_arg1)) (m ((c : Thread nD τ).loc main_arg2))
      ∧ r.2.mem ((c : Thread nD τ).loc main_v0_0) = val_main_v28 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2.2.1.trans (final5 m c), (h c).2.1.trans (final4 m c), (h c).1.trans (final3 m c), (h c).2.2.2⟩)
    (Value.run_blocks m ρ)

end Cert.KernelIdeal.Whole

end
-- ==== Proof.lean ====
/-
  The claims of this certificate.

  For each of the 32 batches the kernel forms two row-wise softmaxes — of P Qᵀ · s and of Q Wᵀ · s, each as
  exp (x − row maximum) divided by its row sum — and returns (softmax₁) Q, E = (softmax₂) W and E W. The reference
  computes the same three arrays for all batches at once. Over the extended reals the two programs perform the same
  sums, maxima, exponentials and quotients on the same numbers (a change of float format is the identity there); the
  one difference in form, the reference's extra maximum with −∞ after a reduction that started from −∞, is absorbed
  by the reduction. So the three result arrays are equal entry by entry, with no use of the finiteness of the inputs.
  The three frames are the generated runs, and nothing was rewritten when the kernel was idealized.
-/
import proofs.«121219_j8778913153179_2_alg».proof.Defs
import proofs.«121219_j8778913153179_2_alg».proof.Proof.Gen.Kernel
import proofs.«121219_j8778913153179_2_alg».proof.Proof.Gen.Kernel.Skeleton
import proofs.«121219_j8778913153179_2_alg».proof.Proof.Gen.Kernel.Launch
import proofs.«121219_j8778913153179_2_alg».proof.Proof.Gen.Kernel.Points
import proofs.«121219_j8778913153179_2_alg».proof.Proof.Gen.Kernel.Frame
import proofs.«121219_j8778913153179_2_alg».proof.Proof.Gen.KernelIdeal
import proofs.«121219_j8778913153179_2_alg».proof.Proof.Gen.KernelIdeal.Skeleton
import proofs.«121219_j8778913153179_2_alg».proof.Proof.Gen.KernelIdeal.Launch
import proofs.«121219_j8778913153179_2_alg».proof.Proof.Gen.KernelIdeal.Points
import proofs.«121219_j8778913153179_2_alg».proof.Proof.Gen.KernelIdeal.Frame
import proofs.«121219_j8778913153179_2_alg».proof.Proof.Gen.ReferenceIdeal
import proofs.«121219_j8778913153179_2_alg».proof.Proof.Gen.Pre_finite_inputs
import proofs.«121219_j8778913153179_2_alg».proof.Proof.Gen.KernelIdeal.Value
import proofs.«121219_j8778913153179_2_alg».proof.Proof.Gen.ReferenceIdeal.Run
import proofs.«121219_j8778913153179_2_alg».proof.Proof.Gen.ReferenceIdeal.Read
import proofs.«121219_j8778913153179_2_alg».proof.Proof.Blocks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with the reference's three arrays of those
    arguments: the kernel by the block-by-block comparison, the reference by its own run. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2.1.trans ?_, (h c).2.2.2⟩
  · rw [a1, a2]; rfl
  · rw [a1, a2]; rfl
  · rw [a0, a1]; rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
